-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S2x128x512 : Shape := ⟨3, ![2, 128, 512]⟩
abbrev S1024x1024 : Shape := ⟨2, ![1024, 1024]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S2x128x512 : S_.BroadcastsInDim S2x128x512 (![] : Fin 0 → Fin S2x128x512.rank)
  reducesTo_S2x128x512_S_d0_1_2 : S2x128x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x512x512 .f32) (main_arg1 : FVec F S2x128x512 .f32) (main_arg2 : FVec F S1024x1024 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x128x512 .f32 := Host.absf main_arg1
  let main_cst_0 : FVec F S_ .f32 := constant S_ .f32 0x7F800000#32
  let main_v5 : FVec F S2x128x512 .f32 := broadcastInDim S2x128x512 ![] bcast_S_S2x128x512 main_cst_0
  let main_v6 : IVec S2x128x512 1 := cmpf .olt main_v4 main_v5
  let main_c_1 : IVec S_ 1 := constantI S_ 1 1#1
  let main_v7 : IVec S_ 1 := (fun x v => Host.reduce IntOp.andi x v reducesTo_S2x128x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x512x512 : Shape := ⟨3, ![2, 512, 512]⟩
abbrev S2x128x512 : Shape := ⟨3, ![2, 128, 512]⟩
abbrev S1024x1024 : Shape := ⟨2, ![1024, 1024]⟩
abbrev S1024x512 : Shape := ⟨2, ![1024, 512]⟩
abbrev S512x1024 : Shape := ⟨2, ![512, 1024]⟩
abbrev S2x512x128x1024 : Shape := ⟨4, ![2, 512, 128, 1024]⟩
abbrev S1x16x512 : Shape := ⟨3, ![1, 16, 512]⟩
abbrev S1x128x512 : Shape := ⟨3, ![1, 128, 512]⟩
abbrev S1x16x128x1024 : Shape := ⟨4, ![1, 16, 128, 1024]⟩
abbrev S1x128x1024 : Shape := ⟨3, ![1, 128, 1024]⟩
abbrev S128x512 : Shape := ⟨2, ![128, 512]⟩
abbrev S128x1024 : Shape := ⟨2, ![128, 1024]⟩
abbrev S16x512 : Shape := ⟨2, ![16, 512]⟩
abbrev S16x1024 : Shape := ⟨2, ![16, 1024]⟩
abbrev S16x1x1024 : Shape := ⟨3, ![16, 1, 1024]⟩
abbrev S16x128x1024 : Shape := ⟨3, ![16, 128, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2x512x512, .f32⟩
  | .hbm, ⟨1, _⟩ => ⟨S2x128x512, .f32⟩
  | .hbm, ⟨2, _⟩ => ⟨S1024x1024, .f32⟩
  | .hbm, ⟨3, _⟩ => ⟨S1024x512, .f32⟩
  | .hbm, ⟨4, _⟩ => ⟨S512x1024, .f32⟩
  | .hbm, ⟨5, _⟩ => ⟨S1024x512, .f32⟩
  | .hbm, ⟨6, _⟩ => ⟨S512x1024, .f32⟩
  | .hbm, ⟨7, _⟩ => ⟨S2x512x128x1024, .f32⟩
  | .local _ .vmem, ⟨0, _⟩ => ⟨S1x16x512, .f32⟩
  | .local _ .vmem, ⟨1, _⟩ => ⟨S1x16x512, .f32⟩
  | .local _ .vmem, ⟨2, _⟩ => ⟨S1x128x512, .f32⟩
  | .local _ .vmem, ⟨3, _⟩ => ⟨S1x128x512, .f32⟩
  | .local _ .vmem, ⟨4, _⟩ => ⟨S512x1024, .f32⟩
  | .local _ .vmem, ⟨5, _⟩ => ⟨S512x1024, .f32⟩
  | .local _ .vmem, ⟨6, _⟩ => ⟨S1x16x128x1024, .f32⟩
  | .local _ .vmem, ⟨7, _⟩ => ⟨S1x16x128x1024, .f32⟩
  | .local _ .vmem, ⟨8, _⟩ => ⟨S1x128x1024, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S1024x1024_S1024x512_0_0 : S1024x1024.Slices ![0, 0] S1024x512
  transposes_S1024x512_S512x1024_1_0 : S1024x512.Transposes [1, 0] S512x1024
  slices_S1024x1024_S1024x512_0_512 : S1024x1024.Slices ![0, 512] S1024x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x1024_S16x1x1024 : S16x1024.ShapeCasts S16x1x1024
  broadcasts_S16x1x1024_S16x128x1024 : S16x1x1024.Broadcasts S16x128x1024
  broadcasts_S1x128x1024_S16x128x1024 : S1x128x1024.Broadcasts S16x128x1024
  inb_S1x16x128x1024_S1x16x128x1024_0_0_0_0 : ∀ a, (![0, 0, 0, 0] : Fin 4 → Nat) a + S1x16x128x1024.size a ≤ S1x16x128x1024.size a
  h_S1x16x128x1024 : 0 < S1x16x128x1024.numel
  shapeCasts_S1x16x128x1024_S16x128x1024 : S1x16x128x1024.ShapeCasts S16x128x1024
  shapeCasts_S16x128x1024_S1x16x128x1024 : S16x128x1024.ShapeCasts S1x16x128x1024
  dot_S128x512_S512x1024_S128x1024_1_0_0_1_n_n_wf : DotDims.WF S128x512 S512x1024 S128x1024 [1] [0] [0] [1] [] []
  dot_S16x512_S512x1024_S16x1024_1_0_0_1_n_n_wf : DotDims.WF S16x512 S512x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S2x512x512.size a
  hwx0_0 : ∀ i : grid0.Coords, EltTy.bits .f32 = 32 ∨ (Rect.block (s := S2x512x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S2x128x512.size a
  hwx0_1 : ∀ i : grid0.Coords, EltTy.bits .f32 = 32 ∨ (Rect.block (s := S2x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x1024.size a ≤ S2x512x128x1024.size a
  hwx0_4 : ∀ i : grid0.Coords, EltTy.bits .f32 = 32 ∨ (Rect.block (s := S2x512x128x1024) S1x16x128x1024.size (cc0_transform_4 i) (hinb0_4 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S16x512_S512x1024_S16x1024_1_0_0_1_n_n : DotDims S16x512 S512x1024 S16x1024 where
  lhsContracting := [1]
  rhsContracting := [0]
  lhsNonContracting := [0]
  rhsNonContracting := [1]
  lhsBatch := []
  rhsBatch := []
  wf := dot_S16x512_S512x1024_S16x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x16x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x512x512 : Shape := ⟨3, ![2, 512, 512]⟩
abbrev S2x128x512 : Shape := ⟨3, ![2, 128, 512]⟩
abbrev S1024x1024 : Shape := ⟨2, ![1024, 1024]⟩
abbrev S1024x512 : Shape := ⟨2, ![1024, 512]⟩
abbrev S2x512x1024 : Shape := ⟨3, ![2, 512, 1024]⟩
abbrev S2x128x1024 : Shape := ⟨3, ![2, 128, 1024]⟩
abbrev S2x512x1x1024 : Shape := ⟨4, ![2, 512, 1, 1024]⟩
abbrev S2x1x128x1024 : Shape := ⟨4, ![2, 1, 128, 1024]⟩
abbrev S2x512x128x1024 : Shape := ⟨4, ![2, 512, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x128x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S2x512x1024, .f32⟩
  | .hbm, ⟨6, _⟩ => ⟨S2x128x1024, .f32⟩
  | .hbm, ⟨7, _⟩ => ⟨S2x512x1x1024, .f32⟩
  | .hbm, ⟨8, _⟩ => ⟨S2x1x128x1024, .f32⟩
  | .hbm, ⟨9, _⟩ => ⟨S2x512x128x1024, .f32⟩
  | .hbm, ⟨10, _⟩ => ⟨S2x512x128x1024, .f32⟩
  | .hbm, ⟨11, _⟩ => ⟨S2x512x128x1024, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S2x512x1024_S2x512x1x1024_0_1_3 : S2x512x1024.BroadcastsInDim S2x512x1x1024 (![0, 1, 3] : Fin 3 → Fin S2x512x1x1024.rank)
  bcast_S2x128x1024_S2x1x128x1024_0_2_3 : S2x128x1024.BroadcastsInDim S2x1x128x1024 (![0, 2, 3] : Fin 3 → Fin S2x1x128x1024.rank)
  bcast_S2x512x1x1024_S2x512x128x1024_0_1_2_3 : S2x512x1x1024.BroadcastsInDim S2x512x128x1024 (![0, 1, 2, 3] : Fin 4 → Fin S2x512x128x1024.rank)
  bcast_S2x1x128x1024_S2x512x128x1024_0_1_2_3 : S2x1x128x1024.BroadcastsInDim S2x512x128x1024 (![0, 1, 2, 3] : Fin 4 → Fin S2x512x128x1024.rank)
  dot_S2x512x512_S1024x512_S2x512x1024_2_1_01_0_n_n_wf : DotDims.WF S2x512x512 S1024x512 S2x512x1024 [2] [1] [0, 1] [0] [] []
  dot_S2x128x512_S1024x512_S2x128x1024_2_1_01_0_n_n_wf : DotDims.WF S2x128x512 S1024x512 S2x128x1024 [2] [1] [0, 1] [0] [] []

variable [Facts₀]

def dot_S2x512x512_S1024x512_S2x512x1024_2_1_01_0_n_n : DotDims S2x512x512 S1024x512 S2x512x1024 where
  lhsContracting := [2]
  rhsContracting := [1]
  lhsNonContracting := [0, 1]
  rhsNonContracting := [0]
  lhsBatch := []
  rhsBatch := []
  wf := dot_S2x512x512_S1024x512_S2x512x1024_2_1_01_0_n_n_wf
def dot_S2x128x512_S1024x512_S2x128x1024_2_1_01_0_n_n : DotDims S2x128x512 S1024x512 S2x128x1024 where
  lhsContracting := [2]
  rhsContracting := [1]
  lhsNonContracting := [0, 1]
  rhsNonContracting := [0]
  lhsBatch := []
  rhsBatch := []
  wf := dot_S2x128x512_S1024x512_S2x128x1024_2_1_01_0_n_n_wf

class Facts : Prop extends Facts₀ where

variable [Facts]
-- ==== Proof.JointSpec.lean ====
/-
  The joint projection, entry by entry.

  The encoder array enc[b, t, d], the decoder array dec[b, u, d] and one weight array W[v, 2·512], whose left half
  multiplies the encoder and whose right half the decoder: the result at (b, t, u, v) is
      (∑ d, enc[b, t, d] · W[v, d])  +  (∑ d, dec[b, u, d] · W[v, 512 + d]).
  The first summand does not depend on u, the second not on t: each is computed once and broadcast.
-/
import Idealize.ShloMosaic.PureOps.Ideal
import Idealize.ShloMosaic.Lib.ValueIdx

noncomputable section

namespace Cert.Joint

open Idealize.ShloMosaic Idealize.ShloMosaic.ValueIdx

/-- Entry (v, d) of the weight array: the encoder half's column d. -/
abbrev wEnc (v : Fin 1024) (d : Fin 512) : (⟨2, ![1024, 1024]⟩ : Shape).Idx :=
  ix2 v (⟨d.val, by have := d.isLt; omega⟩ : Fin 1024)

/-- Entry (v, 512 + d) of the weight array: the decoder half's column d. -/
abbrev wDec (v : Fin 1024) (d : Fin 512) : (⟨2, ![1024, 1024]⟩ : Shape).Idx :=
  ix2 v (⟨512 + d.val, by have := d.isLt; omega⟩ : Fin 1024)

/-- The encoder's projection at (b, t, v): row (b, t) of the encoder against row v of the weights' left half. -/
def encProj (enc : (⟨3, ![2, 512, 512]⟩ : Shape).Idx → EReal) (W : (⟨2, ![1024, 1024]⟩ : Shape).Idx → EReal)
    (b : Fin 2) (t : Fin 512) (v : Fin 1024) : EReal :=
  ∑ d : Fin 512, enc (ix3 b t d) * W (wEnc v d)

/-- The decoder's projection at (b, u, v): row (b, u) of the decoder against row v of the weights' right half. -/
def decProj (dec : (⟨3, ![2, 128, 512]⟩ : Shape).Idx → EReal) (W : (⟨2, ![1024, 1024]⟩ : Shape).Idx → EReal)
    (b : Fin 2) (u : Fin 128) (v : Fin 1024) : EReal :=
  ∑ d : Fin 512, dec (ix3 b u d) * W (wDec v d)

/-- The joint projection at (b, t, u, v). -/
def jointAt (enc : (⟨3, ![2, 512, 512]⟩ : Shape).Idx → EReal) (dec : (⟨3, ![2, 128, 512]⟩ : Shape).Idx → EReal)
    (W : (⟨2, ![1024, 1024]⟩ : Shape).Idx → EReal) (b : Fin 2) (t : Fin 512) (u : Fin 128) (v : Fin 1024) : EReal :=
  encProj enc W b t v + decProj dec W b u v

/-- The joint projection as one array of shape [2, 512, 128, 1024]. -/
def joint (enc : (⟨3, ![2, 512, 512]⟩ : Shape).Idx → EReal) (dec : (⟨3, ![2, 128, 512]⟩ : Shape).Idx → EReal)
    (W : (⟨2, ![1024, 1024]⟩ : Shape).Idx → EReal) : (⟨4, ![2, 512, 128, 1024]⟩ : Shape).Idx → EReal :=
  fun i => jointAt enc dec W (i 0) (i 1) (i 2) (i 3)

/-- The array read at coordinates (b, t, u, v). -/
theorem joint_ix4 (enc : (⟨3, ![2, 512, 512]⟩ : Shape).Idx → EReal) (dec : (⟨3, ![2, 128, 512]⟩ : Shape).Idx → EReal)
    (W : (⟨2, ![1024, 1024]⟩ : Shape).Idx → EReal) (b : Fin 2) (t : Fin 512) (u : Fin 128) (v : Fin 1024) :
    joint enc dec W (ix4 b t u v) = jointAt enc dec W b t u v := rfl

end Cert.Joint

end
-- ==== Proof.RefJoint.lean ====
/-
  The reference computes the joint projection.

  The reference slices the weight array into its two halves, contracts the encoder (resp. the decoder) with the left
  (resp. right) half along the feature axis, inserts a unit axis into each product, broadcasts both to
  [2, 512, 128, 1024] and adds.  Read at (b, t, u, v), stage by stage, this is
      (∑ d, enc[b, t, d] · W[v, d]) + (∑ d, dec[b, u, d] · W[v, 512 + d]).
-/
import proofs.«143873_j7310034338570_2_alg».proof.Proof.Gen.ReferenceIdeal.Read
import proofs.«143873_j7310034338570_2_alg».proof.Proof.JointSpec

noncomputable section

namespace Cert.ReferenceIdeal.RefJoint

open Cert.ReferenceIdeal Cert.ReferenceIdeal.Read Idealize.ShloMosaic Idealize.ShloMosaic.ValueIdx Cert.Joint

/-- The reference's last stage, as an array, is the joint projection of its three arguments. -/
theorem ref_is_joint (enc : (⟨S2x512x512, .f32⟩ : BufTy).Contents (Elt Ideal))
    (dec : (⟨S2x128x512, .f32⟩ : BufTy).Contents (Elt Ideal)) (W : (⟨S1024x1024, .f32⟩ : BufTy).Contents (Elt Ideal)) :
    val_main_v8 (F := Ideal) enc dec W = joint enc dec W := by
  funext i
  obtain ⟨b, t, u, v, rfl⟩ : ∃ (b : Fin 2) (t : Fin 512) (u : Fin 128) (v : Fin 1024), i = ix4 b t u v :=
    ⟨i 0, i 1, i 2, i 3, eq_ix4 i⟩
  -- the encoder's row (b, t) and the weights' entry (v, d)
  have el : ∀ d : Fin 512, lidx_main_v2 (idx_main_v4 (idx_main_v6 (ix4 b t u v))) d = ix3 b t d := fun d =>
    funext fun a => Fin.ext (by match a with | ⟨0, _⟩ => rfl | ⟨1, _⟩ => rfl | ⟨2, _⟩ => rfl)
  have er : ∀ d : Fin 512, idx_main_v0 (ridx_main_v2 (idx_main_v4 (idx_main_v6 (ix4 b t u v))) d) = wEnc v d := fun d =>
    funext fun a => Fin.ext (by match a with | ⟨0, _⟩ => rfl | ⟨1, _⟩ => rfl)
  -- the decoder's row (b, u) and the weights' entry (v, 512 + d)
  have dl : ∀ d : Fin 512, lidx_main_v3 (idx_main_v5 (idx_main_v7 (ix4 b t u v))) d = ix3 b u d := fun d =>
    funext fun a => Fin.ext (by match a with | ⟨0, _⟩ => rfl | ⟨1, _⟩ => rfl | ⟨2, _⟩ => rfl)
  have dr : ∀ d : Fin 512, idx_main_v1 (ridx_main_v3 (idx_main_v5 (idx_main_v7 (ix4 b t u v))) d) = wDec v d := fun d =>
    funext fun a => Fin.ext (by match a with | ⟨0, _⟩ => rfl | ⟨1, _⟩ => rfl)
  rw [joint_ix4, val_main_v8_apply, val_main_v6_apply, val_main_v4_apply, val_main_v2_apply, val_main_v7_apply,
    val_main_v5_apply, val_main_v3_apply]
  simp only [val_main_v0_apply, val_main_v1_apply, el, er, dl, dr]
  rfl

end Cert.ReferenceIdeal.RefJoint

end
-- ==== Proof.Found.lean ====
/-
  What one grid step leaves behind, as values.

  At the first step of each batch row the body projects the decoder block, stores the projection into the carried
  scratch, reads it back and stores "encoder projection + scratch" into the output block; at the other steps it only
  reads the scratch.  Each store writes its whole buffer, so what a buffer holds afterwards is the stored value:
    first step :  scratch ← P(dec, Wdec),   output ← Q(enc, Wenc, P(dec, Wdec))
    other steps:  scratch unchanged,        output ← Q(enc, Wenc, scratch)
  with P the first stored value and Q the second, as functions of the blocks loaded.
-/
import proofs.«143873_j7310034338570_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First step of a batch row: the scratch ends at the decoder block's projection. -/
theorem scratch_first (c : Dev nD) (i : grid0.Coords) (arg2 : Memref sig .tc .vmem S1x16x512 .f32) (harg2 : arg2.IsWhole) (arg3 : Memref sig .tc .vmem S1x128x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x16x128x1024 .f32) (harg6 : arg6.IsWhole) (arg7 : Memref sig .tc .vmem S1x128x1024 .f32) (harg7 : arg7.IsWhole) (hc0 : cond0_0 i) (x0 : Vec F S1x16x512 .f32) (x1 : Vec F S1x128x512 .f32) (x2 : Vec F S512x1024 .f32) (x3 : Vec F S512x1024 .f32) :
    sout0_A_0 c i arg2 harg2 arg3 harg3 arg4 harg4 arg5 harg5 arg6 harg6 arg7 harg7 hc0 x0 x1 x2 x3 = k0_pay1 x1 x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz3]
  simp only [View.readAt_eq_ld, harg3.read_unread, harg5.read_unread, View.ld_unit_zero (S := S1x128x512) hz3,
    View.ld_unit_zero (S := S512x1024) hz2]

/-- First step of a batch row: the output block ends at the encoder block's projection plus the projection just
    stored in the scratch (the load after the store reads the stored value back). -/
theorem out_first (c : Dev nD) (i : grid0.Coords) (arg2 : Memref sig .tc .vmem S1x16x512 .f32) (harg2 : arg2.IsWhole) (arg3 : Memref sig .tc .vmem S1x128x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x16x128x1024 .f32) (harg6 : arg6.IsWhole) (arg7 : Memref sig .tc .vmem S1x128x1024 .f32) (harg7 : arg7.IsWhole) (hc0 : cond0_0 i) (x0 : Vec F S1x16x512 .f32) (x1 : Vec F S1x128x512 .f32) (x2 : Vec F S512x1024 .f32) (x3 : Vec F S512x1024 .f32) :
    out0_A_4 c i arg2 harg2 arg3 harg3 arg4 harg4 arg5 harg5 arg6 harg6 arg7 harg7 hc0 x0 x1 x2 x3 = k0_pay2 x0 x2 (k0_pay1 x1 x3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz4, View.readCov_unit_zero (S := S1x128x1024) _ hz3]
  simp only [View.readAt_eq_ld, harg2.read_unread, harg3.read_unread, harg4.read_unread, harg5.read_unread,
    View.ld_unit_zero (S := S1x16x512) hz3, View.ld_unit_zero (S := S1x128x512) hz3, View.ld_unit_zero (S := S512x1024) hz2]

/-- Any other step: the output block ends at the encoder block's projection plus what the scratch held. -/
theorem out_later (c : Dev nD) (i : grid0.Coords) (arg2 : Memref sig .tc .vmem S1x16x512 .f32) (harg2 : arg2.IsWhole) (arg3 : Memref sig .tc .vmem S1x128x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x16x128x1024 .f32) (harg6 : arg6.IsWhole) (arg7 : Memref sig .tc .vmem S1x128x1024 .f32) (harg7 : arg7.IsWhole) (hc0 : ¬cond0_0 i) (x0 : Vec F S1x16x512 .f32) (x1 : Vec F S1x128x512 .f32) (x2 : Vec F S512x1024 .f32) (x3 : Vec F S512x1024 .f32) (xs0 : Vec F S1x128x1024 .f32) :
    out0_B_4 c i arg2 harg2 arg3 harg3 arg4 harg4 arg5 harg5 arg6 harg6 arg7 harg7 hc0 x0 x1 x2 x3 xs0 = k0_pay2 x0 x2 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero hz4]
  simp only [View.readAt_eq_ld, harg2.read_unread, harg4.read_unread, harg7.read_unread,
    View.ld_unit_zero (S := S1x16x512) hz3, View.ld_unit_zero (S := S1x128x1024) hz3, View.ld_unit_zero (S := S512x1024) hz2]

end Cert.KernelIdeal.Found

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«143873_j7310034338570_2_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.Payload.lean ====
/-
  The two stored values, entry by entry, over the extended reals.

  P(x, w), the projection of a [1, 128, 512] block x against a [512, 1024] block w, at (0, u, v):
      ∑ d, x[0, u, d] · w[d, v]
  (the block is read as a [128, 512] matrix, narrowed to bf16 — the identity on extended reals —, multiplied into a
  zero accumulator, and the product read back as [1, 128, 1024]).
  Q(x, w, s) for a [1, 16, 512] block x, a [512, 1024] block w and a [1, 128, 1024] scratch s, at (0, p, u, v):
      (∑ d, x[0, p, d] · w[d, v]) + s[0, u, v]
  (the [16, 1024] product gets a unit middle axis and is broadcast over u, the scratch is broadcast over p, the two
  are added and read as a [1, 16, 128, 1024] block).
-/
import proofs.«143873_j7310034338570_2_alg».proof.Proof.Gen.KernelIdeal.Skeleton
import proofs.«143873_j7310034338570_2_alg».proof.Proof.LibPlainDot
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-- A [1, 128, 512] block read as a [128, 512] matrix: entry (u, d) is the block's (0, u, d). -/
theorem dec_matrix_apply (x : Vec Ideal S1x128x512 .f32) (u : Fin 128) (d : Fin 512) :
    shapeCast S128x512 x shapeCasts_S1x128x512_S128x512 (ix2 u d) = x (ix3 (0 : Fin 1) u d) := by
  refine shapeCast_apply _ _ (ix2 u d) (ix3 (0 : Fin 1) u d) ?_
  rw [Shape.rowMajor_val_two, Shape.rowMajor_val_three]
  show (0 * 128 + u.val) * 512 + d.val = u.val * 512 + d.val
  omega

/-- A [1, 16, 512] block read as a [16, 512] matrix: entry (p, d) is the block's (0, p, d). -/
theorem enc_matrix_apply (x : Vec Ideal S1x16x512 .f32) (p : Fin 16) (d : Fin 512) :
    shapeCast S16x512 x shapeCasts_S1x16x512_S16x512 (ix2 p d) = x (ix3 (0 : Fin 1) p d) := by
  refine shapeCast_apply _ _ (ix2 p d) (ix3 (0 : Fin 1) p d) ?_
  rw [Shape.rowMajor_val_two, Shape.rowMajor_val_three]
  show (0 * 16 + p.val) * 512 + d.val = p.val * 512 + d.val
  omega

/-- The product of a [M, 512] matrix with a [512, 1024] matrix into a zero accumulator, both narrowed to bf16 on the
    way in, read at (p, v): the plain sum over the contracted axis. -/
theorem dec_product_apply (a : FVec Ideal S128x512 .f32) (w : FVec Ideal S512x1024 .f32) (u : Fin 128) (v : Fin 1024) :
    matmul dot_S128x512_S512x1024_S128x1024_1_0_0_1_n_n none (truncf .bf16 a bitsLt_bf16_f32)
        (truncf .bf16 (shapeCast S512x1024 w shapeCasts_S512x1024_S512x1024) bitsLt_bf16_f32)
        (constant S128x1024 .f32 0x00000000#32) (ix2 u v)
      = ∑ d : Fin 512, a (ix2 u d) * w (ix2 d v) := by
  rw [shapeCast_self]
  refine (Ideal.matmul_constant_zero_apply dot_S128x512_S512x1024_S128x1024_1_0_0_1_n_n none
    (truncf .bf16 a bitsLt_bf16_f32) (truncf .bf16 w bitsLt_bf16_f32) (ix2 u v)).trans ?_
  exact Cert.LibPlainDot.sum_plain dot_S128x512_S512x1024_S128x1024_1_0_0_1_n_n rfl rfl rfl rfl rfl rfl
    (truncf .bf16 a bitsLt_bf16_f32) (truncf .bf16 w bitsLt_bf16_f32) u v

theorem enc_product_apply (a : FVec Ideal S16x512 .f32) (w : FVec Ideal S512x1024 .f32) (p : Fin 16) (v : Fin 1024) :
    matmul dot_S16x512_S512x1024_S16x1024_1_0_0_1_n_n none (truncf .bf16 a bitsLt_bf16_f32)
        (truncf .bf16 (shapeCast S512x1024 w shapeCasts_S512x1024_S512x1024) bitsLt_bf16_f32)
        (constant S16x1024 .f32 0x00000000#32) (ix2 p v)
      = ∑ d : Fin 512, a (ix2 p d) * w (ix2 d v) := by
  rw [shapeCast_self]
  refine (Ideal.matmul_constant_zero_apply dot_S16x512_S512x1024_S16x1024_1_0_0_1_n_n none
    (truncf .bf16 a bitsLt_bf16_f32) (truncf .bf16 w bitsLt_bf16_f32) (ix2 p v)).trans ?_
  exact Cert.LibPlainDot.sum_plain dot_S16x512_S512x1024_S16x1024_1_0_0_1_n_n rfl rfl rfl rfl rfl rfl
    (truncf .bf16 a bitsLt_bf16_f32) (truncf .bf16 w bitsLt_bf16_f32) p v

/-- P at (0, u, v): row u of the block against column v of the weights. -/
theorem proj_apply (x1 : Vec Ideal S1x128x512 .f32) (x3 : Vec Ideal S512x1024 .f32) (u : Fin 128) (v : Fin 1024) :
    k0_pay1 x1 x3 (ix3 (0 : Fin 1) u v) = ∑ d : Fin 512, x1 (ix3 (0 : Fin 1) u d) * x3 (ix2 d v) := by
  unfold k0_pay1
  refine (shapeCast_apply _ shapeCasts_S128x1024_S1x128x1024 (ix3 (0 : Fin 1) u v) (ix2 u v) ?_).trans ?_
  · rw [Shape.rowMajor_val_two, Shape.rowMajor_val_three]
    show u.val * 1024 + v.val = (0 * 128 + u.val) * 1024 + v.val
    omega
  refine (dec_product_apply _ x3 u v).trans ?_
  exact Finset.sum_congr rfl fun d _ => congrArg (· * x3 (ix2 d v)) (dec_matrix_apply x1 u d)

/-- Q at (0, p, u, v): row p of the block against column v of the weights, plus the scratch at (0, u, v). -/
theorem sum_apply (x0 : Vec Ideal S1x16x512 .f32) (x2 : Vec Ideal S512x1024 .f32) (s : Vec Ideal S1x128x1024 .f32)
    (p : Fin 16) (u : Fin 128) (v : Fin 1024) :
    k0_pay2 x0 x2 s (ix4 (0 : Fin 1) p u v)
      = (∑ d : Fin 512, x0 (ix3 (0 : Fin 1) p d) * x2 (ix2 d v)) + s (ix3 (0 : Fin 1) u v) := by
  unfold k0_pay2
  refine (shapeCast_apply _ shapeCasts_S16x128x1024_S1x16x128x1024 (ix4 (0 : Fin 1) p u v) (ix3 p u v) ?_).trans ?_
  · rw [Shape.rowMajor_val_three, Shape.rowMajor_val_four]
    show (p.val * 128 + u.val) * 1024 + v.val = ((0 * 16 + p.val) * 128 + u.val) * 1024 + v.val
    omega
  refine (addf_apply _ _ _).trans ?_
  refine congrArg₂ (· + ·) ?_ ?_
  · -- the product, given a unit middle axis, broadcast over u
    refine (broadcastTo_apply _ broadcasts_S16x1x1024_S16x128x1024 (ix3 p u v) (ix3 p (0 : Fin 1) v) (fun a => ?_)).trans ?_
    · match a with
      | ⟨0, _⟩ => show p.val = if (16 : Nat) = 1 then 0 else p.val; rw [if_neg (by decide)]
      | ⟨1, _⟩ => show 0 = if (1 : Nat) = 1 then 0 else u.val; rw [if_pos rfl]
      | ⟨2, _⟩ => show v.val = if (1024 : Nat) = 1 then 0 else v.val; rw [if_neg (by decide)]
    refine (shapeCast_apply _ shapeCasts_S16x1024_S16x1x1024 (ix3 p (0 : Fin 1) v) (ix2 p v) ?_).trans ?_
    · rw [Shape.rowMajor_val_two, Shape.rowMajor_val_three]
      show p.val * 1024 + v.val = (p.val * 1 + 0) * 1024 + v.val
      omega
    refine (enc_product_apply _ x2 p v).trans ?_
    exact Finset.sum_congr rfl fun d _ => congrArg (· * x2 (ix2 d v)) (enc_matrix_apply x0 p d)
  · -- the scratch, read as a matrix and back, broadcast over p
    refine (broadcastTo_apply _ broadcasts_S1x128x1024_S16x128x1024 (ix3 p u v) (ix3 (0 : Fin 1) u v) (fun a => ?_)).trans ?_
    · match a with
      | ⟨0, _⟩ => show 0 = if (1 : Nat) = 1 then 0 else p.val; rw [if_pos rfl]
      | ⟨1, _⟩ => show u.val = if (128 : Nat) = 1 then 0 else u.val; rw [if_neg (by decide)]
      | ⟨2, _⟩ => show v.val = if (1024 : Nat) = 1 then 0 else v.val; rw [if_neg (by decide)]
    rw [shapeCast_shapeCast]

end Cert.KernelIdeal.Payload

end
-- ==== Proof.Blocks.lean ====
/-
  The blocks a grid step reads, as entries of the argument arrays.

  The grid is 2 × 32: step n is batch row n / 32 and time block n % 32.  At step n
    the encoder block is rows 16·(n % 32) … 16·(n % 32) + 15 of batch row n / 32 of the encoder array;
    the decoder block is batch row n / 32 of the decoder array;
    the two weight blocks are whole arrays prepared before the kernel starts: the transposes of the left and of the right
    half of the weight array, so entry (d, v) of the first is W[v, d] and of the second W[v, 512 + d].
-/
import proofs.«143873_j7310034338570_2_alg».proof.Proof.Gen.KernelIdeal.Frame
import proofs.«143873_j7310034338570_2_alg».proof.Proof.JointSpec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx Cert.Joint

variable {F : FTy → Type} [FloatOps F]
variable (m : (ℓ : Loc nD τ sig) → Buf (Elt F) ℓ)

/-- The block index of each window at each of the 64 steps. -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val / 32 ∧ win0_4.index t (1 : Fin 4) = t.val % 32
    ∧ win0_4.index t (2 : Fin 4) = 0 ∧ win0_4.index t (3 : Fin 4) = 0 :=
  (by decide +kernel : ∀ t : Fin grid0.N, _)

/-- The batch row of step n: n / 32. -/
def row (n : ℕ) (h : n < cfg0.N) : Fin 2 := ⟨n / 32, by have hN : cfg0.N = 64 := N_0; omega⟩

/-- Row p of time block s, as a row of the encoder array: 16·s + p. -/
abbrev encRow (n : ℕ) (p : Fin 16) : Fin 512 :=
  ⟨16 * (n % 32) + p.val, by have := p.isLt; have := Nat.mod_lt n (show 0 < 32 by decide); omega⟩

/-- The encoder block of step t at (0, p, d) is the encoder array at (t / 32, 16·(t % 32) + p, d). -/
theorem enc_blk (c : Dev nD) (t : Fin cfg0.N) (p : Fin 16) (d : Fin 512) :
    (iblk m c 0 t : Vec F S1x16x512 .f32) (ix3 (0 : Fin 1) p d)
      = m ((c : Thread nD τ).loc main_arg0) (ix3 (row t.val t.isLt) (encRow t.val p) d) := by
  obtain ⟨e0, e1, e2, -⟩ := idx_facts t
  unfold iblk
  rw [View.read_apply]
  show V m c main_arg0 (((cfg0.win 0).blk t).view.emb (ix3 (0 : Fin 1) p d)) = _
  rw [V_main_arg0]
  refine congrArg _ (funext fun a => Fin.ext ?_)
  match a with
  | ⟨0, _⟩ => show win0_0.index t (0 : Fin 3) * 1 + 1 * 0 = t.val / 32; omega
  | ⟨1, _⟩ => show win0_0.index t (1 : Fin 3) * 16 + 1 * p.val = 16 * (t.val % 32) + p.val; omega
  | ⟨2, _⟩ => show win0_0.index t (2 : Fin 3) * 512 + 1 * d.val = d.val; omega

/-- The decoder block of step t at (0, u, d) is the decoder array at (t / 32, u, d). -/
theorem dec_blk (c : Dev nD) (t : Fin cfg0.N) (u : Fin 128) (d : Fin 512) :
    (iblk m c 1 t : Vec F S1x128x512 .f32) (ix3 (0 : Fin 1) u d)
      = m ((c : Thread nD τ).loc main_arg1) (ix3 (row t.val t.isLt) u d) := by
  obtain ⟨-, -, -, e0, e1, e2, -⟩ := idx_facts t
  unfold iblk
  rw [View.read_apply]
  show V m c main_arg1 (((cfg0.win 1).blk t).view.emb (ix3 (0 : Fin 1) u d)) = _
  rw [V_main_arg1]
  refine congrArg _ (funext fun a => Fin.ext ?_)
  match a with
  | ⟨0, _⟩ => show win0_1.index t (0 : Fin 3) * 1 + 1 * 0 = t.val / 32; omega
  | ⟨1, _⟩ => show win0_1.index t (1 : Fin 3) * 128 + 1 * u.val = u.val; omega
  | ⟨2, _⟩ => show win0_1.index t (2 : Fin 3) * 512 + 1 * d.val = d.val; omega

/-- The first prepared weight array, the transpose of the weights' left half: entry (d, v) is W[v, d]. -/
theorem wenc_apply (c : Dev nD) (d : Fin 512) (v : Fin 1024) :
    (V m c main_v1 : S512x1024.Idx → Elt F .f32) (ix2 d v) = m ((c : Thread nD τ).loc main_arg2) (wEnc v d) := by
  have e : (V m c main_v1 : S512x1024.Idx → Elt F .f32)
      = transpose S512x1024 [1, 0] (extractStridedSlice S1024x512 ![0, 0] (m ((c : Thread nD τ).loc main_arg2))
          slices_S1024x1024_S1024x512_0_0) transposes_S1024x512_S512x1024_1_0 := by
    dsimp only [V, hostOps0]; after_results
  rw [e]
  refine (transpose_apply [1, 0] _ transposes_S1024x512_S512x1024_1_0 (ix2 d v) (ix2 v d) (fun b => ?_)).trans ?_
  · match b with
    | ⟨0, _⟩ => rfl
    | ⟨1, _⟩ => rfl
  · exact extractStridedSlice_apply ![0, 0] _ slices_S1024x1024_S1024x512_0_0 (ix2 v d) (wEnc v d) (fun a =>
      match a with
      | ⟨0, _⟩ => by show v.val = 0 + v.val; omega
      | ⟨1, _⟩ => by show d.val = 0 + d.val; omega)

/-- The second prepared weight array, the transpose of the weights' right half: entry (d, v) is W[v, 512 + d]. -/
theorem wdec_apply (c : Dev nD) (d : Fin 512) (v : Fin 1024) :
    (V m c main_v3 : S512x1024.Idx → Elt F .f32) (ix2 d v) = m ((c : Thread nD τ).loc main_arg2) (wDec v d) := by
  have e : (V m c main_v3 : S512x1024.Idx → Elt F .f32)
      = transpose S512x1024 [1, 0] (extractStridedSlice S1024x512 ![0, 512] (m ((c : Thread nD τ).loc main_arg2))
          slices_S1024x1024_S1024x512_0_512) transposes_S1024x512_S512x1024_1_0 := by
    dsimp only [V, hostOps0]; after_results
  rw [e]
  refine (transpose_apply [1, 0] _ transposes_S1024x512_S512x1024_1_0 (ix2 d v) (ix2 v d) (fun b => ?_)).trans ?_
  · match b with
    | ⟨0, _⟩ => rfl
    | ⟨1, _⟩ => rfl
  · exact extractStridedSlice_apply ![0, 512] _ slices_S1024x1024_S1024x512_0_512 (ix2 v d) (wDec v d) (fun a =>
      match a with
      | ⟨0, _⟩ => by show v.val = 0 + v.val; omega
      | ⟨1, _⟩ => by show 512 + d.val = 512 + d.val; omega)

/-- The encoder-side weight block of any step is the whole first prepared array. -/
theorem wenc_blk (c : Dev nD) (t : Fin cfg0.N) (d : Fin 512) (v : Fin 1024) :
    (iblk m c 2 t : Vec F S512x1024 .f32) (ix2 d v) = m ((c : Thread nD τ).loc main_arg2) (wEnc v d) := by
  obtain ⟨-, -, -, -, -, -, e0, e1, -⟩ := idx_facts t
  refine Eq.trans ?_ (wenc_apply m c d v)
  unfold iblk
  rw [View.read_apply]
  show V m c main_v1 (((cfg0.win 2).blk t).view.emb (ix2 d v)) = _
  refine congrArg _ (funext fun a => Fin.ext ?_)
  match a with
  | ⟨0, _⟩ => show win0_2.index t (0 : Fin 2) * 512 + 1 * d.val = d.val; omega
  | ⟨1, _⟩ => show win0_2.index t (1 : Fin 2) * 1024 + 1 * v.val = v.val; omega

/-- The decoder-side weight block of any step is the whole second prepared array. -/
theorem wdec_blk (c : Dev nD) (t : Fin cfg0.N) (d : Fin 512) (v : Fin 1024) :
    (iblk m c 3 t : Vec F S512x1024 .f32) (ix2 d v) = m ((c : Thread nD τ).loc main_arg2) (wDec v d) := by
  obtain ⟨-, -, -, -, -, -, -, -, e0, e1, -⟩ := idx_facts t
  refine Eq.trans ?_ (wdec_apply m c d v)
  unfold iblk
  rw [View.read_apply]
  show V m c main_v3 (((cfg0.win 3).blk t).view.emb (ix2 d v)) = _
  refine congrArg _ (funext fun a => Fin.ext ?_)
  match a with
  | ⟨0, _⟩ => show win0_3.index t (0 : Fin 2) * 512 + 1 * d.val = d.val; omega
  | ⟨1, _⟩ => show win0_3.index t (1 : Fin 2) * 1024 + 1 * v.val = v.val; omega

end Cert.KernelIdeal.Blocks

end
-- ==== Proof.Carried.lean ====
/-
  What the carried scratch holds after each grid step.

  The scratch is rewritten at the first step of each batch row (steps 0 and 32) with the projection of that row's
  decoder block, and left alone at the 31 steps that follow.  So after step n it holds the decoder projection of
  batch row n / 32:   scratch[0, u, v] = ∑ d, dec[n / 32, u, d] · W[v, 512 + d].
  By induction on n: a rewriting step computes it from its own blocks; a later step keeps what the step before
  left, and n / 32 does not change there.
-/
import proofs.«143873_j7310034338570_2_alg».proof.Proof.Gen.KernelIdeal.Value
import proofs.«143873_j7310034338570_2_alg».proof.Proof.Found
import proofs.«143873_j7310034338570_2_alg».proof.Proof.Payload
import proofs.«143873_j7310034338570_2_alg».proof.Proof.Blocks
import proofs.«143873_j7310034338570_2_alg».proof.Proof.JointSpec

noncomputable section

open Idealize.ShloMosaic Idealize.ShloMosaic.TcCoe Idealize.SL.Sem

namespace Cert.KernelIdeal.Carried

open Cert.KernelIdeal Cert.KernelIdeal.Gen Idealize.ShloMosaic.ValueIdx Cert.Joint
open Cert.KernelIdeal.Found Cert.KernelIdeal.Payload Cert.KernelIdeal.Blocks

variable (m : (ℓ : Loc nD τ sig) → Buf (Elt Ideal) ℓ)

/-- The decoder block x of step t projected against the decoder-side weight block w is the decoder projection of the
    step's batch row. -/
theorem proj_blocks (c : Dev nD) (t : Fin cfg0.N) (u : Fin 128) (v : Fin 1024)
    (x : Vec Ideal S1x128x512 .f32) (w : Vec Ideal S512x1024 .f32) (hx : x = iblk m c 1 t) (hw : w = iblk m c 3 t) :
    (∑ d : Fin 512, x (ix3 (0 : Fin 1) u d) * w (ix2 d v))
      = decProj (m ((c : Thread nD τ).loc main_arg1)) (m ((c : Thread nD τ).loc main_arg2)) (row t.val t.isLt) u v := by
  subst hx hw
  unfold decProj
  exact Finset.sum_congr rfl fun d _ => by rw [dec_blk m c t u d, wdec_blk m c t d v]

/-- A rewriting step leaves the decoder projection of its batch row. -/
theorem scratch_rewritten (c : Dev nD) (t : Fin cfg0.N) (h0 : t.val % 32 = 0) (u : Fin 128) (v : Fin 1024) :
    (outsAt0 m c t.val t.isLt).2 (ix3 (0 : Fin 1) u v)
      = decProj (m ((c : Thread nD τ).loc main_arg1)) (m ((c : Thread nD τ).loc main_arg2)) (row t.val t.isLt) u v := by
  rw [outsAt0_A m c t h0]
  dsimp only
  rw [scratch_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
  rw [proj_apply]
  exact proj_blocks m c t u v _ _ rfl rfl

/-- After step n the scratch holds the decoder projection of batch row n / 32. -/
theorem scratch_eq (c : Dev nD) : ∀ (n : ℕ) (h : n < cfg0.N) (u : Fin 128) (v : Fin 1024),
    (outsAt0 m c n h).2 (ix3 (0 : Fin 1) u v)
      = decProj (m ((c : Thread nD τ).loc main_arg1)) (m ((c : Thread nD τ).loc main_arg2)) (row n h) u v := by
  intro n
  induction n with
  | zero => intro h u v; exact scratch_rewritten m c ⟨0, h⟩ rfl u v
  | succ n ih =>
    intro h u v
    by_cases h0 : (n + 1) % 32 = 0
    · exact scratch_rewritten m c ⟨n + 1, h⟩ h0 u v
    · rw [outsAt0_B m c ⟨n + 1, h⟩ h0]
      dsimp only
      unfold sout0_B_0
      show (outsAt0 m c n (Nat.lt_of_succ_lt h)).2 (ix3 (0 : Fin 1) u v) = _
      rw [ih (Nat.lt_of_succ_lt h) u v]
      exact congrArg (fun b => decProj (m ((c : Thread nD τ).loc main_arg1)) (m ((c : Thread nD τ).loc main_arg2)) b u v)
        (Fin.ext (by show n / 32 = (n + 1) / 32; omega))

end Cert.KernelIdeal.Carried

end
-- ==== Proof.Whole.lean ====
/-
  The kernel's result array is the joint projection.

  Step n writes back block (n / 32, n % 32) of the result: rows 16·(n % 32) … 16·(n % 32) + 15 of batch row n / 32, all of
  u and v.  What it writes at (0, p, u, v) is the encoder block's row p projected against the encoder-side weights,
  plus the scratch at (0, u, v) — the decoder projection of batch row n / 32, whether this step has just computed it
  or a step before left it.  That is the joint projection at (n / 32, 16·(n % 32) + p, u, v).  The 64 blocks tile the
  array: entry (b, r, u, v) lies in the block of step 32·b + r / 16.
-/
import proofs.«143873_j7310034338570_2_alg».proof.Proof.Carried

noncomputable section

open Idealize.ShloMosaic Idealize.ShloMosaic.TcCoe Idealize.SL.Sem

namespace Cert.KernelIdeal.Whole

open Cert.KernelIdeal Cert.KernelIdeal.Gen Idealize.ShloMosaic.ValueIdx Cert.Joint
open Cert.KernelIdeal.Found Cert.KernelIdeal.Payload Cert.KernelIdeal.Blocks Cert.KernelIdeal.Carried
open Idealize.ShloMosaic.Pipeline (Dat)

variable (m : (ℓ : Loc nD τ sig) → Buf (Elt Ideal) ℓ) (ρ : Dev nD → PrngReg)

/-- The joint projection of the three argument arrays as launched. -/
abbrev result (c : Dev nD) : Buf (Elt Ideal) ((c : Thread nD τ).loc main_v4) :=
  joint (m ((c : Thread nD τ).loc main_arg0)) (m ((c : Thread nD τ).loc main_arg1)) (m ((c : Thread nD τ).loc main_arg2))

/-- The encoder block of step t projected against the encoder-side weight block is the encoder projection at the
    block's rows. -/
theorem enc_blocks (c : Dev nD) (t : Fin cfg0.N) (p : Fin 16) (v : Fin 1024)
    (x : Vec Ideal S1x16x512 .f32) (w : Vec Ideal S512x1024 .f32) (hx : x = iblk m c 0 t) (hw : w = iblk m c 2 t) :
    (∑ d : Fin 512, x (ix3 (0 : Fin 1) p d) * w (ix2 d v))
      = encProj (m ((c : Thread nD τ).loc main_arg0)) (m ((c : Thread nD τ).loc main_arg2)) (row t.val t.isLt)
          (encRow t.val p) v := by
  subst hx hw
  unfold encProj
  exact Finset.sum_congr rfl fun d _ => by rw [enc_blk m c t p d, wenc_blk m c t d v]

/-- What step t leaves in the output block at (0, p, u, v): the joint projection at the block's place in the array. -/
theorem out_apply (c : Dev nD) (t : Fin cfg0.N) (p : Fin 16) (u : Fin 128) (v : Fin 1024) :
    (outsAt0 m c t.val t.isLt).1 (ix4 (0 : Fin 1) p u v)
      = jointAt (m ((c : Thread nD τ).loc main_arg0)) (m ((c : Thread nD τ).loc main_arg1))
          (m ((c : Thread nD τ).loc main_arg2)) (row t.val t.isLt) (encRow t.val p) u v := by
  unfold jointAt
  by_cases h0 : t.val % 32 = 0
  · rw [outsAt0_A m c t h0]
    dsimp only
    rw [out_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
    rw [sum_apply, proj_apply, enc_blocks m c t p v _ _ rfl rfl, proj_blocks m c t u v _ _ rfl rfl]
  · rw [outsAt0_B m c t h0]
    dsimp only
    rw [out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)]
    rw [sum_apply, enc_blocks m c t p v _ _ rfl rfl, scratch_eq m c (t.val - 1) _ u v]
    exact congrArg (fun b => _ + decProj (m ((c : Thread nD τ).loc main_arg1)) (m ((c : Thread nD τ).loc main_arg2)) b u v)
      (Fin.ext (by show (t.val - 1) / 32 = t.val / 32; omega))

/-- The block of step t at (0, p, u, v) sits in the array at (t / 32, 16·(t % 32) + p, u, v). -/
theorem out_emb (t : Fin cfg0.N) (p : Fin 16) (u : Fin 128) (v : Fin 1024) :
    ((cfg0.win 4).blk t).view.emb (ix4 (0 : Fin 1) p u v) = ix4 (row t.val t.isLt) (encRow t.val p) u v := by
  obtain ⟨-, -, -, -, -, -, -, -, -, -, e0, e1, e2, e3⟩ := idx_facts t
  refine funext fun a => Fin.ext ?_
  match a with
  | ⟨0, _⟩ => show win0_4.index t (0 : Fin 4) * 1 + 1 * 0 = t.val / 32; omega
  | ⟨1, _⟩ => show win0_4.index t (1 : Fin 4) * 16 + 1 * p.val = 16 * (t.val % 32) + p.val; omega
  | ⟨2, _⟩ => show win0_4.index t (2 : Fin 4) * 128 + 1 * u.val = u.val; omega
  | ⟨3, _⟩ => show win0_4.index t (3 : Fin 4) * 1024 + 1 * v.val = v.val; omega

/-- What step t writes back is block t of the joint projection. -/
theorem flushed_eq (c : Dev nD) (t : Fin cfg0.N) :
    (dats m 0 c).flushed 4 t = ((cfg0.win 4).blk t).view.read (Elt Ideal) (result m c) := by
  rw [Value.flushed4]
  show ((outsAt0 m c t.val t.isLt).1 : S1x16x128x1024.Idx → EReal)
    = fun y : S1x16x128x1024.Idx => result m c (((cfg0.win 4).blk t).view.emb y)
  funext y
  obtain ⟨z, p, u, v, rfl⟩ : ∃ (z : Fin 1) (p : Fin 16) (u : Fin 128) (v : Fin 1024), y = ix4 z p u v :=
    ⟨y 0, y 1, y 2, y 3, eq_ix4 y⟩
  obtain rfl : z = 0 := Subsingleton.elim _ _
  rw [out_apply m c t p u v, out_emb t p u v]
  rfl

/-- An entry of the array is in step t's block iff each coordinate is in the block's range on its axis. -/
theorem mem_blk (t : Fin cfg0.N) (i : S2x512x128x1024.Idx) :
    i ∈ ((cfg0.win 4).blk t).view.set ↔ ∀ a : Fin 4, win0_4.index t a * S1x16x128x1024.size a ≤ (i a).val
      ∧ (i a).val < win0_4.index t a * S1x16x128x1024.size a + S1x16x128x1024.size a := by
  show i ∈ ((View.whole main_v4).slice (win0_4.rect t)).set ↔ _
  rw [View.set_slice_whole, Rect.mem_set_unit]
  exact Iff.rfl

/-- Every entry (b, r, u, v) of the array is in the block of step 32·b + r / 16. -/
theorem covered (i : S2x512x128x1024.Idx) :
    ∃ t : Fin cfg0.N, (cfg0.win 4).flush t = true ∧ i ∈ ((cfg0.win 4).blk t).view.set := by
  have h0 : (i 0).val < 2 := (i 0).isLt
  have h1 : (i 1).val < 512 := (i 1).isLt
  have h2 : (i 2).val < 128 := (i 2).isLt
  have h3 : (i 3).val < 1024 := (i 3).isLt
  have hN : cfg0.N = 64 := N_0
  obtain ⟨t, ht⟩ : ∃ t : Fin cfg0.N, t.val = 32 * (i 0).val + (i 1).val / 16 := ⟨⟨_, by omega⟩, rfl⟩
  obtain ⟨-, -, -, -, -, -, -, -, -, -, e0, e1, e2, e3⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 128 ≤ (i 2).val ∧ (i 2).val < win0_4.index t (2 : Fin 4) * 128 + 128; omega
  | ⟨3, _⟩ => show win0_4.index t (3 : Fin 4) * 1024 ≤ (i 3).val ∧ (i 3).val < win0_4.index t (3 : Fin 4) * 1024 + 1024; omega

/-- So the result array ends holding the joint projection. -/
theorem final (c : Dev nD) : (dats m 0 c).arrAt 4 cfg0.N = result m c :=
  (dats m 0 c).arrAt_eq_of_cover 4 (result m c) (fun t _ => flushed_eq m c t) covered

/-- The kernel's run: the result array at the joint projection of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The joint network's projection: a fused kernel against its two-einsum reference, over the extended reals.

  Both programs compute, for an encoder array enc[b, t, d], a decoder array dec[b, u, d] and a weight array W[v, 2·512],
      out[b, t, u, v] = (∑ d, enc[b, t, d] · W[v, d]) + (∑ d, dec[b, u, d] · W[v, 512 + d]).
  The reference contracts each array with its half of the weights, broadcasts the two products and adds.  The kernel
  walks a 2 × 32 grid: at each step it projects a 16-row encoder block; at the first step of each batch row it also
  projects that row's decoder block into a scratch it keeps for the 31 steps that follow; every step adds the two and
  writes one [1, 16, 128, 1024] block of the result.  Over the extended reals the narrowing to bf16 before each product
  is the identity and a product into a zero accumulator is the plain sum, so the two sides are the same sums of the same
  products, term by term: no law of arithmetic beyond that is used, and the inputs' finiteness is not needed.

  Proof/JointSpec   the formula above as one array;
  Proof/RefJoint    the reference's last stage is that array;
  Proof/Found       what one grid step leaves in the scratch and in the output block, as the two stored values;
  Proof/Payload     the two stored values, entry by entry;
  Proof/Blocks      the blocks a step reads, as entries of the argument arrays;
  Proof/Carried     the scratch after step n is the decoder projection of batch row n / 32 (induction on n);
  Proof/Whole       each step writes back a block of the formula's array, the blocks tile it, so it is the result.
  The frames of the two kernel programs and the reference's run are the imported generated modules.
-/
import proofs.«143873_j7310034338570_2_alg».proof.Defs
import proofs.«143873_j7310034338570_2_alg».proof.Proof.Gen.Kernel
import proofs.«143873_j7310034338570_2_alg».proof.Proof.Gen.Kernel.Frame
import proofs.«143873_j7310034338570_2_alg».proof.Proof.Gen.KernelIdeal
import proofs.«143873_j7310034338570_2_alg».proof.Proof.Gen.KernelIdeal.Frame
import proofs.«143873_j7310034338570_2_alg».proof.Proof.Gen.KernelIdeal.Value
import proofs.«143873_j7310034338570_2_alg».proof.Proof.Gen.ReferenceIdeal
import proofs.«143873_j7310034338570_2_alg».proof.Proof.Gen.ReferenceIdeal.Run
import proofs.«143873_j7310034338570_2_alg».proof.Proof.Gen.ReferenceIdeal.Read
import proofs.«143873_j7310034338570_2_alg».proof.Proof.Gen.Pre_finite_inputs
import proofs.«143873_j7310034338570_2_alg».proof.Proof.RefJoint
import proofs.«143873_j7310034338570_2_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the joint projection of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefJoint.ref_is_joint, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
